-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x128x128 : Shape := ⟨4, ![8, 96, 128, 128]⟩
abbrev S1x96x3x3x128x128 : Shape := ⟨6, ![1, 96, 3, 3, 128, 128]⟩
abbrev S_ : Shape := ⟨0, ![]⟩

class Facts : Prop where
  bcast_S_S8x96x128x128 : S_.BroadcastsInDim S8x96x128x128 (![] : Fin 0 → Fin S8x96x128x128.rank)
  reducesTo_S8x96x128x128_S_d0_1_2_3 : S8x96x128x128.ReducesTo [0, 1, 2, 3] S_
  h_S_ : 0 < S_.numel
  bcast_S_S1x96x3x3x128x128 : S_.BroadcastsInDim S1x96x3x3x128x128 (![] : Fin 0 → Fin S1x96x3x3x128x128.rank)
  reducesTo_S1x96x3x3x128x128_S_d0_1_2_3_4_5 : S1x96x3x3x128x128.ReducesTo [0, 1, 2, 3, 4, 5] S_

variable [Facts]

def fn {F : FTy → Type} [FloatOps F] (main_arg0 : FVec F S8x96x128x128 .f32) (main_arg1 : FVec F S1x96x3x3x128x128 .f32) : IVec S_ 1 :=
  let main_v0 : FVec F S8x96x128x128 .f32 := Host.absf main_arg0
  let main_cst : FVec F S_ .f32 := constant S_ .f32 0x7F800000#32
  let main_v1 : FVec F S8x96x128x128 .f32 := broadcastInDim S8x96x128x128 ![] bcast_S_S8x96x128x128 main_cst
  let main_v2 : IVec S8x96x128x128 1 := cmpf .olt main_v0 main_v1
  let main_c : IVec S_ 1 := constantI S_ 1 1#1
  let main_v3 : IVec S_ 1 := (fun x v => Host.reduce IntOp.andi x v reducesTo_S8x96x128x128_S_d0_1_2_3 h_S_) main_v2 main_c
  let main_v4 : FVec F S1x96x3x3x128x128 .f32 := Host.absf main_arg1
  let main_cst_0 : FVec F S_ .f32 := constant S_ .f32 0x7F800000#32
  let main_v5 : FVec F S1x96x3x3x128x128 .f32 := broadcastInDim S1x96x3x3x128x128 ![] bcast_S_S1x96x3x3x128x128 main_cst_0
  let main_v6 : IVec S1x96x3x3x128x128 1 := cmpf .olt main_v4 main_v5
  let main_c_1 : IVec S_ 1 := constantI S_ 1 1#1
  let main_v7 : IVec S_ 1 := (fun x v => Host.reduce IntOp.andi x v reducesTo_S1x96x3x3x128x128_S_d0_1_2_3_4_5 h_S_) main_v6 main_c_1
  let main_v8 : IVec S_ 1 := andi main_v3 main_v7
  main_v8
-- ==== Kernel.lean ====
abbrev S8x96x128x128 : Shape := ⟨4, ![8, 96, 128, 128]⟩
abbrev S1x96x3x3x128x128 : Shape := ⟨6, ![1, 96, 3, 3, 128, 128]⟩
abbrev S_ : Shape := ⟨0, ![]⟩
abbrev S8x96x130x130 : Shape := ⟨4, ![8, 96, 130, 130]⟩
abbrev S96x3x3x128x128 : Shape := ⟨5, ![96, 3, 3, 128, 128]⟩
abbrev S96x9x128x128 : Shape := ⟨4, ![96, 9, 128, 128]⟩
abbrev S1x16x130x130 : Shape := ⟨4, ![1, 16, 130, 130]⟩
abbrev S16x9x128x128 : Shape := ⟨4, ![16, 9, 128, 128]⟩
abbrev S1x16x128x128 : Shape := ⟨4, ![1, 16, 128, 128]⟩
abbrev S16x130x130 : Shape := ⟨3, ![16, 130, 130]⟩
abbrev S16x128x128 : Shape := ⟨3, ![16, 128, 128]⟩
abbrev S16x1x128x128 : Shape := ⟨4, ![16, 1, 128, 128]⟩

abbrev nBuf : Space → Nat
  | .hbm => 8
  | .vmem => 6
  | .smem => 0
  | _ => 0

abbrev bufTy : (tb : Table) → Fin (tcTables nBuf tb) → BufTy
  | .hbm, ⟨0, _⟩ => ⟨S8x96x128x128, .f32⟩
  | .hbm, ⟨1, _⟩ => ⟨S1x96x3x3x128x128, .f32⟩
  | .hbm, ⟨2, _⟩ => ⟨S_, .i32⟩
  | .hbm, ⟨3, _⟩ => ⟨S_, .f32⟩
  | .hbm, ⟨4, _⟩ => ⟨S8x96x130x130, .f32⟩
  | .hbm, ⟨5, _⟩ => ⟨S96x3x3x128x128, .f32⟩
  | .hbm, ⟨6, _⟩ => ⟨S96x9x128x128, .f32⟩
  | .hbm, ⟨7, _⟩ => ⟨S8x96x128x128, .f32⟩
  | .local _ .vmem, ⟨0, _⟩ => ⟨S1x16x130x130, .f32⟩
  | .local _ .vmem, ⟨1, _⟩ => ⟨S1x16x130x130, .f32⟩
  | .local _ .vmem, ⟨2, _⟩ => ⟨S16x9x128x128, .f32⟩
  | .local _ .vmem, ⟨3, _⟩ => ⟨S16x9x128x128, .f32⟩
  | .local _ .vmem, ⟨4, _⟩ => ⟨S1x16x128x128, .f32⟩
  | .local _ .vmem, ⟨5, _⟩ => ⟨S1x16x128x128, .f32⟩
  | _, _ => ⟨S8x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x16x130x130 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x9x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x96x128x128_S8x96x130x130_000_000_110_110 : S8x96x128x128.Pads (![0, 0, 1, 1] : Fin 4 → Nat) ![0, 0, 1, 1] ![0, 0, 0, 0] S8x96x130x130
  h_S_ : 0 < S_.numel
  shapeCasts_S1x96x3x3x128x128_S96x3x3x128x128 : S1x96x3x3x128x128.ShapeCasts S96x3x3x128x128
  shapeCasts_S96x3x3x128x128_S96x9x128x128 : S96x3x3x128x128.ShapeCasts S96x9x128x128
  inb_S1x16x130x130_S1x16x130x130_0_0_0_0 : ∀ a, (![0, 0, 0, 0] : Fin 4 → Nat) a + S1x16x130x130.size a ≤ S1x16x130x130.size a
  h_S1x16x130x130 : 0 < S1x16x130x130.numel
  shapeCasts_S1x16x130x130_S16x130x130 : S1x16x130x130.ShapeCasts S16x130x130
  slices_S16x130x130_o0_0_0_S16x128x128 : S16x130x130.Slices ![0, 0, 0] S16x128x128
  inb_S16x9x128x128_S16x1x128x128_0_0_0_0 : ∀ a, (![0, 0, 0, 0] : Fin 4 → Nat) a + S16x1x128x128.size a ≤ S16x9x128x128.size a
  h_S16x1x128x128 : 0 < S16x1x128x128.numel
  shapeCasts_S16x1x128x128_S16x128x128 : S16x1x128x128.ShapeCasts S16x128x128
  slices_S16x130x130_o0_0_1_S16x128x128 : S16x130x130.Slices ![0, 0, 1] S16x128x128
  inb_S16x9x128x128_S16x1x128x128_0_1_0_0 : ∀ a, (![0, 1, 0, 0] : Fin 4 → Nat) a + S16x1x128x128.size a ≤ S16x9x128x128.size a
  slices_S16x130x130_o0_0_2_S16x128x128 : S16x130x130.Slices ![0, 0, 2] S16x128x128
  inb_S16x9x128x128_S16x1x128x128_0_2_0_0 : ∀ a, (![0, 2, 0, 0] : Fin 4 → Nat) a + S16x1x128x128.size a ≤ S16x9x128x128.size a
  slices_S16x130x130_o0_1_0_S16x128x128 : S16x130x130.Slices ![0, 1, 0] S16x128x128
  inb_S16x9x128x128_S16x1x128x128_0_3_0_0 : ∀ a, (![0, 3, 0, 0] : Fin 4 → Nat) a + S16x1x128x128.size a ≤ S16x9x128x128.size a
  slices_S16x130x130_o0_1_1_S16x128x128 : S16x130x130.Slices ![0, 1, 1] S16x128x128
  inb_S16x9x128x128_S16x1x128x128_0_4_0_0 : ∀ a, (![0, 4, 0, 0] : Fin 4 → Nat) a + S16x1x128x128.size a ≤ S16x9x128x128.size a
  slices_S16x130x130_o0_1_2_S16x128x128 : S16x130x130.Slices ![0, 1, 2] S16x128x128
  inb_S16x9x128x128_S16x1x128x128_0_5_0_0 : ∀ a, (![0, 5, 0, 0] : Fin 4 → Nat) a + S16x1x128x128.size a ≤ S16x9x128x128.size a
  slices_S16x130x130_o0_2_0_S16x128x128 : S16x130x130.Slices ![0, 2, 0] S16x128x128
  inb_S16x9x128x128_S16x1x128x128_0_6_0_0 : ∀ a, (![0, 6, 0, 0] : Fin 4 → Nat) a + S16x1x128x128.size a ≤ S16x9x128x128.size a
  slices_S16x130x130_o0_2_1_S16x128x128 : S16x130x130.Slices ![0, 2, 1] S16x128x128
  inb_S16x9x128x128_S16x1x128x128_0_7_0_0 : ∀ a, (![0, 7, 0, 0] : Fin 4 → Nat) a + S16x1x128x128.size a ≤ S16x9x128x128.size a
  slices_S16x130x130_o0_2_2_S16x128x128 : S16x130x130.Slices ![0, 2, 2] S16x128x128
  inb_S16x9x128x128_S16x1x128x128_0_8_0_0 : ∀ a, (![0, 8, 0, 0] : Fin 4 → Nat) a + S16x1x128x128.size a ≤ S16x9x128x128.size a
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  shapeCasts_S16x128x128_S1x16x128x128 : S16x128x128.ShapeCasts S1x16x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x130x130.size a ≤ S8x96x130x130.size a
  hwx0_0 : ∀ i : grid0.Coords, EltTy.bits .f32 = 32 ∨ (Rect.block (s := S8x96x130x130) S1x16x130x130.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x9x128x128.size a ≤ S96x9x128x128.size a
  hwx0_1 : ∀ i : grid0.Coords, EltTy.bits .f32 = 32 ∨ (Rect.block (s := S96x9x128x128) S16x9x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x128.size a ≤ S8x96x128x128.size a
  hwx0_2 : ∀ i : grid0.Coords, EltTy.bits .f32 = 32 ∨ (Rect.block (s := S8x96x128x128) S1x16x128x128.size (cc0_transform_2 i) (hinb0_2 i)).WholeWords (EltTy.packing .f32)

variable [Facts₀]

abbrev win0_0 : Pipeline.Window sig grid0 :=
  Pipeline.Window.ofSpec (Memref.whole main_v0) S1x16x130x130.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x9x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x96x128x128 : Shape := ⟨4, ![8, 96, 128, 128]⟩
abbrev S1x96x3x3x128x128 : Shape := ⟨6, ![1, 96, 3, 3, 128, 128]⟩
abbrev S_ : Shape := ⟨0, ![]⟩
abbrev S8x96x130x130 : Shape := ⟨4, ![8, 96, 130, 130]⟩
abbrev S8x96x1x128x128 : Shape := ⟨5, ![8, 96, 1, 128, 128]⟩
abbrev S8x96x9x128x128 : Shape := ⟨5, ![8, 96, 9, 128, 128]⟩
abbrev S8x96x3x3x128x128 : Shape := ⟨6, ![8, 96, 3, 3, 128, 128]⟩

abbrev nBuf : Space → Nat
  | .hbm => 29
  | .vmem => 0
  | .smem => 0
  | _ => 0

abbrev bufTy : (tb : Table) → Fin (tcTables nBuf tb) → BufTy
  | .hbm, ⟨0, _⟩ => ⟨S8x96x128x128, .f32⟩
  | .hbm, ⟨1, _⟩ => ⟨S1x96x3x3x128x128, .f32⟩
  | .hbm, ⟨2, _⟩ => ⟨S_, .i32⟩
  | .hbm, ⟨3, _⟩ => ⟨S_, .f32⟩
  | .hbm, ⟨4, _⟩ => ⟨S8x96x130x130, .f32⟩
  | .hbm, ⟨5, _⟩ => ⟨S8x96x128x128, .f32⟩
  | .hbm, ⟨6, _⟩ => ⟨S8x96x128x128, .f32⟩
  | .hbm, ⟨7, _⟩ => ⟨S8x96x128x128, .f32⟩
  | .hbm, ⟨8, _⟩ => ⟨S8x96x128x128, .f32⟩
  | .hbm, ⟨9, _⟩ => ⟨S8x96x128x128, .f32⟩
  | .hbm, ⟨10, _⟩ => ⟨S8x96x128x128, .f32⟩
  | .hbm, ⟨11, _⟩ => ⟨S8x96x128x128, .f32⟩
  | .hbm, ⟨12, _⟩ => ⟨S8x96x128x128, .f32⟩
  | .hbm, ⟨13, _⟩ => ⟨S8x96x128x128, .f32⟩
  | .hbm, ⟨14, _⟩ => ⟨S8x96x1x128x128, .f32⟩
  | .hbm, ⟨15, _⟩ => ⟨S8x96x1x128x128, .f32⟩
  | .hbm, ⟨16, _⟩ => ⟨S8x96x1x128x128, .f32⟩
  | .hbm, ⟨17, _⟩ => ⟨S8x96x1x128x128, .f32⟩
  | .hbm, ⟨18, _⟩ => ⟨S8x96x1x128x128, .f32⟩
  | .hbm, ⟨19, _⟩ => ⟨S8x96x1x128x128, .f32⟩
  | .hbm, ⟨20, _⟩ => ⟨S8x96x1x128x128, .f32⟩
  | .hbm, ⟨21, _⟩ => ⟨S8x96x1x128x128, .f32⟩
  | .hbm, ⟨22, _⟩ => ⟨S8x96x1x128x128, .f32⟩
  | .hbm, ⟨23, _⟩ => ⟨S8x96x9x128x128, .f32⟩
  | .hbm, ⟨24, _⟩ => ⟨S8x96x3x3x128x128, .f32⟩
  | .hbm, ⟨25, _⟩ => ⟨S8x96x3x3x128x128, .f32⟩
  | .hbm, ⟨26, _⟩ => ⟨S8x96x3x3x128x128, .f32⟩
  | .hbm, ⟨27, _⟩ => ⟨S_, .f32⟩
  | .hbm, ⟨28, _⟩ => ⟨S8x96x128x128, .f32⟩
  | _, _ => ⟨S8x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩

abbrev nD : Nat := 1
abbrev τ : Topo := Topo.v7x

variable {F : FTy → Type} [FloatOps F]

class Facts₀ : Prop where
  pads_S8x96x128x128_S8x96x130x130_000_000_110_110 : S8x96x128x128.Pads (![0, 0, 1, 1] : Fin 4 → Nat) ![0, 0, 1, 1] ![0, 0, 0, 0] S8x96x130x130
  h_S_ : 0 < S_.numel
  slices_S8x96x130x130_S8x96x128x128_0_0_0_0 : S8x96x130x130.Slices ![0, 0, 0, 0] S8x96x128x128
  slices_S8x96x130x130_S8x96x128x128_0_0_0_1 : S8x96x130x130.Slices ![0, 0, 0, 1] S8x96x128x128
  slices_S8x96x130x130_S8x96x128x128_0_0_0_2 : S8x96x130x130.Slices ![0, 0, 0, 2] S8x96x128x128
  slices_S8x96x130x130_S8x96x128x128_0_0_1_0 : S8x96x130x130.Slices ![0, 0, 1, 0] S8x96x128x128
  slices_S8x96x130x130_S8x96x128x128_0_0_1_1 : S8x96x130x130.Slices ![0, 0, 1, 1] S8x96x128x128
  slices_S8x96x130x130_S8x96x128x128_0_0_1_2 : S8x96x130x130.Slices ![0, 0, 1, 2] S8x96x128x128
  slices_S8x96x130x130_S8x96x128x128_0_0_2_0 : S8x96x130x130.Slices ![0, 0, 2, 0] S8x96x128x128
  slices_S8x96x130x130_S8x96x128x128_0_0_2_1 : S8x96x130x130.Slices ![0, 0, 2, 1] S8x96x128x128
  slices_S8x96x130x130_S8x96x128x128_0_0_2_2 : S8x96x130x130.Slices ![0, 0, 2, 2] S8x96x128x128
  bcast_S8x96x128x128_S8x96x1x128x128_0_1_3_4 : S8x96x128x128.BroadcastsInDim S8x96x1x128x128 (![0, 1, 3, 4] : Fin 4 → Fin S8x96x1x128x128.rank)
  concatenates_S8x96x1x128x128_S8x96x1x128x128_S8x96x1x128x128_S8x96x1x128x128_S8x96x1x128x128_S8x96x1x128x128_S8x96x1x128x128_S8x96x1x128x128_S8x96x1x128x128_S8x96x9x128x128_d2 : Shape.Concatenates [S8x96x1x128x128, S8x96x1x128x128, S8x96x1x128x128, S8x96x1x128x128, S8x96x1x128x128, S8x96x1x128x128, S8x96x1x128x128, S8x96x1x128x128, S8x96x1x128x128] S8x96x9x128x128 2
  shapeCasts_S8x96x9x128x128_S8x96x3x3x128x128 : S8x96x9x128x128.ShapeCasts S8x96x3x3x128x128
  bcast_S1x96x3x3x128x128_S8x96x3x3x128x128_0_1_2_3_4_5 : S1x96x3x3x128x128.BroadcastsInDim S8x96x3x3x128x128 (![0, 1, 2, 3, 4, 5] : Fin 6 → Fin S8x96x3x3x128x128.rank)
  reducesTo_S8x96x3x3x128x128_S8x96x128x128_d2_3 : S8x96x3x3x128x128.ReducesTo [2, 3] S8x96x128x128

variable [Facts₀]

class Facts : Prop extends Facts₀ where

variable [Facts]
-- ==== Proof.Taps.lean ====
/-
  The mathematics of the per-pixel 3 × 3 weighted sum, on the extended reals, with no program in sight.

  `xp` is a zero-padded image batch [8, 96, 130, 130] and `wt` a map of per-pixel weights [1, 96, 3, 3, 128, 128]. The tap
  (di, dj) at pixel (b, c, h, w) is the product `xp (b, c, h + di, w + dj) · wt (0, c, di, dj, h, w)`, and the result at the
  pixel is the sum of its nine taps (`convAt`).

  Two arrangements of that sum are met. One adds the nine taps onto a zero, one after the other, rows first
  (`fold_eq_convAt`): only associativity of `+` and `0 + x = x` separate it from the sum, both valid at the infinities.
  The other is a host sum over axes 2 and 3 of the array of all products [8, 96, 3, 3, 128, 128] with the factors in the
  other order: the indices that drop to (b, c, h, w) are exactly the nine (b, c, di, dj, h, w) (`sum_drop_taps`), and
  the product commutes (`hostSum_eq_convAt`). Nothing here needs the entries to be finite.
-/
import Idealize.ShloMosaic.PureOps.Ideal.Laws
import Idealize.ShloMosaic.Lib.ValueIdx
import Idealize.ShloMosaic.Lib.IdealHost
import Idealize.ShloMosaic.Lib.ValueIdxRank6

noncomputable section

namespace Cert.Taps

open Idealize.ShloMosaic Idealize.ShloMosaic.ValueIdx
open scoped BigOperators

/-- The result and the input: [8, 96, 128, 128]. -/
abbrev SOut : Shape := ⟨4, ![8, 96, 128, 128]⟩
/-- The input padded by one pixel on each side of the last two axes. -/
abbrev SPad : Shape := ⟨4, ![8, 96, 130, 130]⟩
/-- The weight maps. -/
abbrev SWt : Shape := ⟨6, ![1, 96, 3, 3, 128, 128]⟩
/-- All products: one per image, channel, tap and pixel. -/
abbrev SProd : Shape := ⟨6, ![8, 96, 3, 3, 128, 128]⟩

/-- Where tap (di, dj) of pixel (b, c, h, w) reads the padded input: (b, c, h + di, w + dj). -/
def padIdx (b : Fin 8) (c : Fin 96) (h w : Fin 128) (di dj : Fin 3) : SPad.Idx :=
  ix4 b c (⟨h.val + di.val, by omega⟩ : Fin 130) (⟨w.val + dj.val, by omega⟩ : Fin 130)

/-- Where it reads the weight maps: (0, c, di, dj, h, w). -/
def wtIdx (c : Fin 96) (di dj : Fin 3) (h w : Fin 128) : SWt.Idx := ix6 (0 : Fin 1) c di dj h w

/-- Tap (di, dj) of pixel (b, c, h, w). -/
def tap (xp : SPad.Idx → EReal) (wt : SWt.Idx → EReal) (b : Fin 8) (c : Fin 96) (h w : Fin 128) (di dj : Fin 3) : EReal :=
  xp (padIdx b c h w di dj) * wt (wtIdx c di dj h w)

/-- The per-pixel 3 × 3 weighted sum at pixel (b, c, h, w). -/
def convAt (xp : SPad.Idx → EReal) (wt : SWt.Idx → EReal) (b : Fin 8) (c : Fin 96) (h w : Fin 128) : EReal :=
  ∑ p : Fin 3 × Fin 3, tap xp wt b c h w p.1 p.2

/-- The whole result array. -/
def conv (xp : SPad.Idx → EReal) (wt : SWt.Idx → EReal) : SOut.Idx → EReal :=
  fun i => convAt xp wt (i 0) (i 1) (i 2) (i 3)

theorem conv_ix4 (xp : SPad.Idx → EReal) (wt : SWt.Idx → EReal) (b : Fin 8) (c : Fin 96) (h w : Fin 128) :
    conv xp wt (ix4 b c h w) = convAt xp wt b c h w := rfl

/-- Nine taps added onto a zero one after the other, rows first, are the sum of the nine. -/
theorem fold_eq_convAt (xp : SPad.Idx → EReal) (wt : SWt.Idx → EReal) (b : Fin 8) (c : Fin 96) (h w : Fin 128) :
    (0 : EReal) + tap xp wt b c h w 0 0 + tap xp wt b c h w 0 1 + tap xp wt b c h w 0 2
      + tap xp wt b c h w 1 0 + tap xp wt b c h w 1 1 + tap xp wt b c h w 1 2
      + tap xp wt b c h w 2 0 + tap xp wt b c h w 2 1 + tap xp wt b c h w 2 2 = convAt xp wt b c h w := by
  unfold convAt
  rw [Fintype.sum_prod_type]
  simp only [Fin.sum_univ_three, zero_add, add_assoc]

/-- The index of the product of tap (di, dj) at pixel (b, c, h, w). -/
def prodIdx (b : Fin 8) (c : Fin 96) (di dj : Fin 3) (h w : Fin 128) : SProd.Idx := ix6 b c di dj h w

/-- The indices of the array of products that drop to pixel (b, c, h, w) when axes 2 and 3 are summed away are its nine
    taps', so the sum over them is a sum over the taps. -/
theorem sum_drop_taps (hr : SProd.ReducesTo [2, 3] SOut) (x : SProd.Idx → EReal) (b : Fin 8) (c : Fin 96) (h w : Fin 128) :
    ∑ i ∈ Finset.univ.filter (fun i => hr.drop i = ix4 b c h w), x i = ∑ p : Fin 3 × Fin 3, x (prodIdx b c p.1 p.2 h w) := by
  symm
  refine Finset.sum_bij (fun p _ => prodIdx b c p.1 p.2 h w) ?_ ?_ ?_ (fun _ _ => rfl)
  · intro p _
    rw [Finset.mem_filter]
    refine ⟨Finset.mem_univ _, funext fun a => Fin.ext ?_⟩
    match a with
    | ⟨0, _⟩ => exact hr.drop_apply_val_of_eq (prodIdx b c p.1 p.2 h w) (0 : Fin 4) (0 : Fin 6)
    | ⟨1, _⟩ => exact hr.drop_apply_val_of_eq (prodIdx b c p.1 p.2 h w) (1 : Fin 4) (1 : Fin 6)
    | ⟨2, _⟩ => exact hr.drop_apply_val_of_eq (prodIdx b c p.1 p.2 h w) (2 : Fin 4) (4 : Fin 6)
    | ⟨3, _⟩ => exact hr.drop_apply_val_of_eq (prodIdx b c p.1 p.2 h w) (3 : Fin 4) (5 : Fin 6)
  · intro p _ q _ hpq
    exact Prod.ext (congrFun hpq (2 : Fin 6)) (congrFun hpq (3 : Fin 6))
  · intro i hi
    rw [Finset.mem_filter] at hi
    have e0 : (hr.drop i (0 : Fin 4) : Nat) = b.val := congrArg (fun f : SOut.Idx => (f (0 : Fin 4)).val) hi.2
    have e1 : (hr.drop i (1 : Fin 4) : Nat) = c.val := congrArg (fun f : SOut.Idx => (f (1 : Fin 4)).val) hi.2
    have e2 : (hr.drop i (2 : Fin 4) : Nat) = h.val := congrArg (fun f : SOut.Idx => (f (2 : Fin 4)).val) hi.2
    have e3 : (hr.drop i (3 : Fin 4) : Nat) = w.val := congrArg (fun f : SOut.Idx => (f (3 : Fin 4)).val) hi.2
    have d0 : (hr.drop i (0 : Fin 4) : Nat) = (i (0 : Fin 6)).val := hr.drop_apply_val_of_eq i (0 : Fin 4) (0 : Fin 6)
    have d1 : (hr.drop i (1 : Fin 4) : Nat) = (i (1 : Fin 6)).val := hr.drop_apply_val_of_eq i (1 : Fin 4) (1 : Fin 6)
    have d2 : (hr.drop i (2 : Fin 4) : Nat) = (i (4 : Fin 6)).val := hr.drop_apply_val_of_eq i (2 : Fin 4) (4 : Fin 6)
    have d3 : (hr.drop i (3 : Fin 4) : Nat) = (i (5 : Fin 6)).val := hr.drop_apply_val_of_eq i (3 : Fin 4) (5 : Fin 6)
    refine ⟨((⟨(i (2 : Fin 6)).val, (i (2 : Fin 6)).isLt⟩ : Fin 3), (⟨(i (3 : Fin 6)).val, (i (3 : Fin 6)).isLt⟩ : Fin 3)),
      Finset.mem_univ _, funext fun a => Fin.ext ?_⟩
    match a with
    | ⟨0, _⟩ => exact e0.symm.trans d0
    | ⟨1, _⟩ => exact e1.symm.trans d1
    | ⟨2, _⟩ => rfl
    | ⟨3, _⟩ => rfl
    | ⟨4, _⟩ => exact e2.symm.trans d2
    | ⟨5, _⟩ => exact e3.symm.trans d3

/-- A host sum, from a zero, over axes 2 and 3 of an array of products whose entry at (b, c, di, dj, h, w) is the weight
    times the padded input of that tap, is the 3 × 3 weighted sum. -/
theorem hostSum_eq_convAt (hr : SProd.ReducesTo [2, 3] SOut) (xp : SPad.Idx → EReal) (wt : SWt.Idx → EReal)
    (x : SProd.Idx → EReal)
    (hx : ∀ (b : Fin 8) (c : Fin 96) (di dj : Fin 3) (h w : Fin 128),
      x (prodIdx b c di dj h w) = wt (wtIdx c di dj h w) * xp (padIdx b c h w di dj))
    (b : Fin 8) (c : Fin 96) (h w : Fin 128) :
    Ideal.hostReduceAdd hr x 0 (ix4 b c h w) = convAt xp wt b c h w := by
  unfold Ideal.hostReduceAdd convAt
  rw [sum_drop_taps hr x b c h w, zero_add]
  refine Finset.sum_congr rfl fun p _ => ?_
  rw [hx, mul_comm]
  rfl

end Cert.Taps

end
-- ==== Proof.KernelBlock.lean ====
/-
  What the kernel body leaves in its output block, entry by entry.

  At a grid point the body sees a padded input block `x0` [1, 16, 130, 130] (one image, sixteen channels) and a weight
  block `x1` [16, 9, 128, 128] (the same sixteen channels, the nine taps on axis 1), and stores a block [1, 16, 128, 128].
  Its entry (0, cc, h, w) is a zero with the nine products
  `x0 (0, cc, h + di, w + dj) · x1 (cc, 3·di + dj, h, w)` added on one after the other, rows first (`block_apply`).
  The body's slices of the input block are shifts by (di, dj), its shape casts only drop or add an axis of extent one,
  and each weight load is the rows of one tap; read at an index each is a re-indexing (`shift_mul_apply`, `load_tap_apply`,
  `cast_block_apply`).
-/
import proofs.«173404_j47914655154337_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Idealize.ShloMosaic.TcCoe

theorem zero_offsets : (![0, 0, 0, 0] : Fin 4 → Nat) = fun _ => 0 := funext fun a => by fin_cases a <;> rfl

/-- One product of the block: the input block shifted by (di, dj) times tap 3·di + dj of the weight block. -/
def blockTap (x0 : Vec Ideal S1x16x130x130 .f32) (x1 : Vec Ideal S16x9x128x128 .f32) (cc : Fin 16) (h w : Fin 128)
    (di dj : Fin 3) : EReal :=
  (x0 (ix4 (0 : Fin 1) cc (⟨h.val + di.val, by omega⟩ : Fin 130) (⟨w.val + dj.val, by omega⟩ : Fin 130)) : EReal)
    * (x1 (ix4 cc (⟨3 * di.val + dj.val, by omega⟩ : Fin 9) h w) : EReal)

/-- The cast [16, 128, 128] → [1, 16, 128, 128] puts entry (cc, h, w) at (0, cc, h, w). -/
theorem cast_block_apply (v : FVec Ideal S16x128x128 .f32) (hc : S16x128x128.ShapeCasts S1x16x128x128)
    (cc : Fin 16) (h w : Fin 128) :
    shapeCast S1x16x128x128 v hc (ix4 (0 : Fin 1) cc h w) = v (ix3 cc h w) :=
  shapeCast_apply v hc _ _ (by
    rw [Shape.rowMajor_val_three, Shape.rowMajor_val_four]
    show (cc.val * 128 + h.val) * 128 + w.val = (((0 : Fin 1).val * 16 + cc.val) * 128 + h.val) * 128 + w.val
    simp)

/-- The input block with its unit axis dropped, shifted by `off = (0, di, dj)`, times one tap's weights with their unit
    axis dropped, at (cc, h, w). -/
theorem shift_mul_apply (P0 : Vec Ideal S1x16x130x130 .f32) (P : Vec Ideal S16x1x128x128 .f32) (off : Fin 3 → Nat)
    (hs : S16x130x130.Slices off S16x128x128) (hc : S1x16x130x130.ShapeCasts S16x130x130)
    (hc' : S16x1x128x128.ShapeCasts S16x128x128) (cc : Fin 16) (h w : Fin 128) (di dj : Fin 3)
    (h0 : off (0 : Fin 3) = 0) (h1 : off (1 : Fin 3) = di.val) (h2 : off (2 : Fin 3) = dj.val) :
    (mulf (F := Ideal) (φ := .f32) (extractStridedSlice S16x128x128 off (shapeCast S16x130x130 P0 hc) hs) (shapeCast S16x128x128 P hc')
        (ix3 cc h w) : EReal)
      = (P0 (ix4 (0 : Fin 1) cc (⟨h.val + di.val, by omega⟩ : Fin 130) (⟨w.val + dj.val, by omega⟩ : Fin 130)) : EReal)
        * (P (ix4 cc (0 : Fin 1) h w) : EReal) := by
  rw [mulf_apply]
  rw [extractStridedSlice_apply off _ hs (ix3 cc h w)
    (ix3 cc (⟨h.val + di.val, by omega⟩ : Fin 130) (⟨w.val + dj.val, by omega⟩ : Fin 130)) (fun a => by
      match a with
      | ⟨0, _⟩ => show cc.val = off (0 : Fin 3) + cc.val; rw [h0]; omega
      | ⟨1, _⟩ => show h.val + di.val = off (1 : Fin 3) + h.val; rw [h1]; omega
      | ⟨2, _⟩ => show w.val + dj.val = off (2 : Fin 3) + w.val; rw [h2]; omega)]
  rw [shapeCast_apply P0 hc (ix3 cc (⟨h.val + di.val, by omega⟩ : Fin 130) (⟨w.val + dj.val, by omega⟩ : Fin 130))
    (ix4 (0 : Fin 1) cc (⟨h.val + di.val, by omega⟩ : Fin 130) (⟨w.val + dj.val, by omega⟩ : Fin 130)) (by
      rw [Shape.rowMajor_val_three, Shape.rowMajor_val_four]
      show (((0 : Fin 1).val * 16 + cc.val) * 130 + (h.val + di.val)) * 130 + (w.val + dj.val)
        = (cc.val * 130 + (h.val + di.val)) * 130 + (w.val + dj.val)
      simp)]
  rw [shapeCast_apply P hc' (ix3 cc h w) (ix4 cc (0 : Fin 1) h w) (by
      rw [Shape.rowMajor_val_three, Shape.rowMajor_val_four]
      show ((cc.val * 1 + (0 : Fin 1).val) * 128 + h.val) * 128 + w.val = (cc.val * 128 + h.val) * 128 + w.val
      simp)]

/-- A load of the weight block through the rows of tap `k` (offsets (0, k, 0, 0), extents [16, 1, 128, 128]) reads
    (cc, 0, h, w) at (cc, k, h, w). -/
theorem load_tap_apply (x1 : Vec Ideal S16x9x128x128 .f32) (off : Fin 4 → Nat)
    (inb : ∀ a, off a + S16x1x128x128.size a ≤ S16x9x128x128.size a) (di dj : Fin 3)
    (h0 : off (0 : Fin 4) = 0) (h1 : off (1 : Fin 4) = 3 * di.val + dj.val) (h2 : off (2 : Fin 4) = 0) (h3 : off (3 : Fin 4) = 0)
    (cc : Fin 16) (h w : Fin 128) :
    View.ld x1 (Rect.unit (s := S16x9x128x128) off S16x1x128x128.size inb) (ix4 cc (0 : Fin 1) h w)
      = x1 (ix4 cc (⟨3 * di.val + dj.val, by omega⟩ : Fin 9) h w) := by
  show x1 ((Rect.unit (s := S16x9x128x128) off S16x1x128x128.size inb).emb (ix4 cc (0 : Fin 1) h w)) = _
  congr 1
  funext a
  apply Fin.ext
  match a with
  | ⟨0, _⟩ => show off (0 : Fin 4) + 1 * cc.val = cc.val; rw [h0]; omega
  | ⟨1, _⟩ => show off (1 : Fin 4) + 1 * (0 : Fin 1).val = 3 * di.val + dj.val; rw [h1]; simp
  | ⟨2, _⟩ => show off (2 : Fin 4) + 1 * h.val = h.val; rw [h2]; omega
  | ⟨3, _⟩ => show off (3 : Fin 4) + 1 * w.val = w.val; rw [h3]; omega

/-- One tap of the body at (cc, h, w): the shifted input block times the loaded rows of that tap is `blockTap`. -/
theorem tap_apply (x0 : Vec Ideal S1x16x130x130 .f32) (x1 : Vec Ideal S16x9x128x128 .f32) (off : Fin 3 → Nat)
    (hs : S16x130x130.Slices off S16x128x128) (hc : S1x16x130x130.ShapeCasts S16x130x130)
    (hc' : S16x1x128x128.ShapeCasts S16x128x128) (woff : Fin 4 → Nat)
    (inb : ∀ a, woff a + S16x1x128x128.size a ≤ S16x9x128x128.size a) (cc : Fin 16) (h w : Fin 128) (di dj : Fin 3)
    (h0 : off (0 : Fin 3) = 0) (h1 : off (1 : Fin 3) = di.val) (h2 : off (2 : Fin 3) = dj.val)
    (g0 : woff (0 : Fin 4) = 0) (g1 : woff (1 : Fin 4) = 3 * di.val + dj.val) (g2 : woff (2 : Fin 4) = 0)
    (g3 : woff (3 : Fin 4) = 0) :
    (mulf (F := Ideal) (φ := .f32) (extractStridedSlice S16x128x128 off (shapeCast S16x130x130 x0 hc) hs)
        (shapeCast S16x128x128 (View.ld x1 (Rect.unit (s := S16x9x128x128) woff S16x1x128x128.size inb)) hc') (ix3 cc h w) : EReal)
      = blockTap x0 x1 cc h w di dj := by
  rw [shift_mul_apply x0 _ off hs hc hc' cc h w di dj h0 h1 h2, load_tap_apply x1 woff inb di dj g0 g1 g2 g3 cc h w]
  rfl

/-- THE BLOCK the body leaves, at entry (0, cc, h, w): a zero and the nine products added on, rows first. -/
theorem block_apply (x0 : Vec Ideal S1x16x130x130 .f32) (x1 : Vec Ideal S16x9x128x128 .f32) (cc : Fin 16) (h w : Fin 128) :
    (out0_2 (F := Ideal) x0 x1 (ix4 (0 : Fin 1) cc h w) : EReal)
      = (0 : EReal) + blockTap x0 x1 cc h w 0 0 + blockTap x0 x1 cc h w 0 1 + blockTap x0 x1 cc h w 0 2
        + blockTap x0 x1 cc h w 1 0 + blockTap x0 x1 cc h w 1 1 + blockTap x0 x1 cc h w 1 2
        + blockTap x0 x1 cc h w 2 0 + blockTap x0 x1 cc h w 2 1 + blockTap x0 x1 cc h w 2 2 := by
  unfold out0_2
  rw [View.canon_unit_zero zero_offsets]
  simp only [View.ld_unit_zero (S := S1x16x130x130) zero_offsets]
  unfold k0_pay1 k0_pay3 k0_pay4 k0_pay2
  dsimp only
  refine (cast_block_apply _ _ cc h w).trans ?_
  simp only [addf_apply, broadcast_apply]
  rw [tap_apply x0 x1 ![0, 0, 0] _ _ _ ![0, 0, 0, 0] _ cc h w 0 0 rfl rfl rfl rfl rfl rfl rfl,
    tap_apply x0 x1 ![0, 0, 1] _ _ _ ![0, 1, 0, 0] _ cc h w 0 1 rfl rfl rfl rfl rfl rfl rfl,
    tap_apply x0 x1 ![0, 0, 2] _ _ _ ![0, 2, 0, 0] _ cc h w 0 2 rfl rfl rfl rfl rfl rfl rfl,
    tap_apply x0 x1 ![0, 1, 0] _ _ _ ![0, 3, 0, 0] _ cc h w 1 0 rfl rfl rfl rfl rfl rfl rfl,
    tap_apply x0 x1 ![0, 1, 1] _ _ _ ![0, 4, 0, 0] _ cc h w 1 1 rfl rfl rfl rfl rfl rfl rfl,
    tap_apply x0 x1 ![0, 1, 2] _ _ _ ![0, 5, 0, 0] _ cc h w 1 2 rfl rfl rfl rfl rfl rfl rfl,
    tap_apply x0 x1 ![0, 2, 0] _ _ _ ![0, 6, 0, 0] _ cc h w 2 0 rfl rfl rfl rfl rfl rfl rfl,
    tap_apply x0 x1 ![0, 2, 1] _ _ _ ![0, 7, 0, 0] _ cc h w 2 1 rfl rfl rfl rfl rfl rfl rfl,
    tap_apply x0 x1 ![0, 2, 2] _ _ _ ![0, 8, 0, 0] _ cc h w 2 2 rfl rfl rfl rfl rfl rfl rfl]
  rw [show (FloatOps.ofBits (F := Ideal) FTy.f32 0#32 : EReal) = 0 from Ideal.ofBits_zero_f32]

end Cert.KernelIdeal.Block

end
-- ==== Proof.KernelArrays.lean ====
/-
  The two arrays the kernel's input windows stage, as the region finds them, in terms of the program's arguments.

  Window 0 stages the input zero-padded by one pixel on each side of its last two axes (`padded`): the host pads with
  the integer zero converted to a float. Window 1 stages the weight maps [1, 96, 3, 3, 128, 128] reshaped twice, to
  [96, 3, 3, 128, 128] and then to [96, 9, 128, 128]: a reshape keeps the row-major order, so entry (c, 3·di + dj, h, w)
  of the result is entry (0, c, di, dj, h, w) of the argument (`weights_apply`).
-/
import proofs.«173404_j47914655154337_1_alg».proof.Proof.Gen.KernelIdeal.Frame
import proofs.«173404_j47914655154337_1_alg».proof.Proof.Taps
import Idealize.ShloMosaic.Lib.StableHlo.Run
import Idealize.ShloMosaic.Lib.Pipeline.Value
import Idealize.ShloMosaic.Lib.ValueIdxRank6

noncomputable section

namespace Cert.KernelIdeal.Arrays

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ)

/-- The input padded with zeros: what window 0's array holds when the region is entered. -/
def padded (c : Dev nD) : S8x96x130x130.Idx → EReal :=
  pad S8x96x130x130 ![0, 0, 1, 1] ![0, 0, 1, 1] ![0, 0, 0, 0] (m ((c : Thread nD τ).loc main_arg0))
    (sitofp (F := Ideal) .f32 (constantI S_ 32 0#32)) Cert.KernelIdeal.Gen.pads_S8x96x128x128_S8x96x130x130_000_000_110_110
    Cert.KernelIdeal.Gen.h_S_

/-- The weight maps reshaped to [96, 9, 128, 128]: what window 1's array holds when the region is entered. -/
def weights (c : Dev nD) : S96x9x128x128.Idx → EReal :=
  shapeCast S96x9x128x128 (shapeCast S96x3x3x128x128 (m ((c : Thread nD τ).loc main_arg1))
    Cert.KernelIdeal.Gen.shapeCasts_S1x96x3x3x128x128_S96x3x3x128x128) Cert.KernelIdeal.Gen.shapeCasts_S96x3x3x128x128_S96x9x128x128

theorem V_padded (c : Dev nD) : (V m c main_v0 : S8x96x130x130.Idx → EReal) = padded m c := by
  dsimp only [V]
  simp only [hostOps0, hostOps0_1, hostOps0_2, List.flatten_cons, List.flatten_nil, List.append_nil, List.cons_append,
    List.nil_append]
  after_results
  rfl

theorem V_weights (c : Dev nD) : (V m c main_v2 : S96x9x128x128.Idx → EReal) = weights m c := by
  dsimp only [V]
  simp only [hostOps0, hostOps0_1, hostOps0_2, List.flatten_cons, List.flatten_nil, List.append_nil, List.cons_append,
    List.nil_append]
  after_results
  rfl

/-- Entry (cq, 3·di + dj, h, w) of the reshaped weights is entry (0, cq, di, dj, h, w) of the weight maps. -/
theorem weights_apply (c : Dev nD) (cq : Fin 96) (di dj : Fin 3) (h w : Fin 128) :
    weights m c (ix4 cq (⟨3 * di.val + dj.val, by omega⟩ : Fin 9) h w)
      = (m ((c : Thread nD τ).loc main_arg1) : S1x96x3x3x128x128.Idx → EReal) (Cert.Taps.wtIdx cq di dj h w) := by
  unfold weights
  rw [shapeCast_apply _ _ (ix4 cq (⟨3 * di.val + dj.val, by omega⟩ : Fin 9) h w) (ix5 cq di dj h w) (by
    rw [Shape.rowMajor_val_four, Shape.rowMajor_val_five]
    show (((cq.val * 3 + di.val) * 3 + dj.val) * 128 + h.val) * 128 + w.val
      = ((cq.val * 9 + (3 * di.val + dj.val)) * 128 + h.val) * 128 + w.val
    ring)]
  rw [shapeCast_apply _ _ (ix5 cq di dj h w) (Cert.Taps.wtIdx cq di dj h w) (by
    unfold Cert.Taps.wtIdx
    rw [Shape.rowMajor_val_five, Shape.rowMajor_val_six]
    show (((((0 : Fin 1).val * 96 + cq.val) * 3 + di.val) * 3 + dj.val) * 128 + h.val) * 128 + w.val
      = (((cq.val * 3 + di.val) * 3 + dj.val) * 128 + h.val) * 128 + w.val
    simp)]

end Cert.KernelIdeal.Arrays

end
-- ==== Proof.KernelValue.lean ====
/-
  The kernel's result array as one function of its arguments: the per-pixel 3 × 3 weighted sum of the zero-padded input.

  The grid has 6 × 8 points; point `t` = (channel tile `ct`, image `b`) reads the padded input's block (b, ct) —
  one image, channels 16·ct … 16·ct + 15, all 130 × 130 pixels —, the reshaped weights' block ct — the same channels,
  all nine taps — and writes the output's block (b, ct). So entry (0, cc, p, q) of the input block is the padded input at
  (b, 16·ct + cc, p, q) (`inBlock_apply`), entry (cc, k, h, w) of the weight block is the reshaped weights at
  (16·ct + cc, k, h, w) (`wtBlock_apply`), and each of the body's nine products at (0, cc, h, w) is the tap of the
  pixel (b, 16·ct + cc, h, w) (`blockTap_eq`). What the point writes back is therefore block (b, ct) of the weighted sum
  (`flushed_eq`); the 48 blocks cover the array (`covered`), hence the array after the run (`final`) and the run (`run`).
-/
import proofs.«173404_j47914655154337_1_alg».proof.Proof.Gen.KernelIdeal.Frame
import proofs.«173404_j47914655154337_1_alg».proof.Proof.Taps
import proofs.«173404_j47914655154337_1_alg».proof.Proof.KernelBlock
import proofs.«173404_j47914655154337_1_alg».proof.Proof.KernelArrays
import Idealize.ShloMosaic.Lib.Pipeline.Value

noncomputable section

namespace Cert.KernelIdeal.Hand

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ) (ρ : Dev nD → PrngReg)

/-- The result: the 3 × 3 weighted sum of the padded input with the weight maps. -/
def result (c : Dev nD) : S8x96x128x128.Idx → EReal :=
  Cert.Taps.conv (Arrays.padded m c) (m ((c : Thread nD τ).loc main_arg1))

/-- The printed index maps over the grid: the input block moves with the output block on the image and channel-tile
    axes, the weight block with its channel-tile axis; every other block coordinate is zero. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (1 : Fin 4) ∧ win0_1.index t (1 : Fin 4) = 0
    ∧ win0_1.index t (2 : Fin 4) = 0 ∧ win0_1.index t (3 : Fin 4) = 0
    ∧ win0_2.index t (0 : Fin 4) ≤ 7 ∧ win0_2.index t (1 : Fin 4) ≤ 5
    ∧ win0_2.index t (2 : Fin 4) = 0 ∧ win0_2.index t (3 : Fin 4) = 0 :=
  (by decide +kernel : ∀ t : Fin grid0.N, _)

/-- Every (image, channel tile) is some point's output block. -/
theorem idx_onto : ∀ (q0 : Fin 8) (q1 : Fin 6), ∃ t : Fin cfg0.N, win0_2.index t = ![q0.val, q1.val, 0, 0] :=
  (by decide +kernel : ∀ (q0 : Fin 8) (q1 : Fin 6), ∃ t : Fin grid0.N, win0_2.index t = ![q0.val, q1.val, 0, 0])

/-- The input block at point `t`, entry (0, cc, p, q): the padded input at (b, 16·ct + cc, p, q). -/
theorem inBlock_apply (c : Dev nD) (t : Fin cfg0.N) (cc : Fin 16) (p q : Fin 130) (b : Fin 8) (cq : Fin 96)
    (hb : b.val = win0_2.index t (0 : Fin 4)) (hcq : cq.val = win0_2.index t (1 : Fin 4) * 16 + cc.val) :
    ((iblk m c 0 t : Vec Ideal S1x16x130x130 .f32) (ix4 (0 : Fin 1) cc p q) : EReal) = Arrays.padded m c (ix4 b cq p q) := by
  obtain ⟨e0, e1, e2, e3, -⟩ := idx_facts t
  refine Eq.trans ?_ (congrFun (Arrays.V_padded m c) (ix4 b cq p q))
  unfold iblk
  rw [View.read_apply]
  show V m c main_v0 _ = V m c main_v0 _
  congr 1
  funext a
  apply Fin.ext
  match a with
  | ⟨0, _⟩ => show win0_0.index t (0 : Fin 4) * 1 + 1 * (0 : Fin 1).val = b.val; rw [e0, hb]; simp
  | ⟨1, _⟩ => show win0_0.index t (1 : Fin 4) * 16 + 1 * cc.val = cq.val; rw [e1, hcq]; omega
  | ⟨2, _⟩ => show win0_0.index t (2 : Fin 4) * 130 + 1 * p.val = p.val; rw [e2]; omega
  | ⟨3, _⟩ => show win0_0.index t (3 : Fin 4) * 130 + 1 * q.val = q.val; rw [e3]; omega

/-- The weight block at point `t`, entry (cc, k, h, w): the reshaped weights at (16·ct + cc, k, h, w). -/
theorem wtBlock_apply (c : Dev nD) (t : Fin cfg0.N) (cc : Fin 16) (k : Fin 9) (h w : Fin 128) (cq : Fin 96)
    (hcq : cq.val = win0_2.index t (1 : Fin 4) * 16 + cc.val) :
    ((iblk m c 1 t : Vec Ideal S16x9x128x128 .f32) (ix4 cc k h w) : EReal) = Arrays.weights m c (ix4 cq k h w) := by
  obtain ⟨-, -, -, -, e4, e5, e6, e7, -⟩ := idx_facts t
  refine Eq.trans ?_ (congrFun (Arrays.V_weights m c) (ix4 cq k h w))
  unfold iblk
  rw [View.read_apply]
  show V m c main_v2 _ = V m c main_v2 _
  congr 1
  funext a
  apply Fin.ext
  match a with
  | ⟨0, _⟩ => show win0_1.index t (0 : Fin 4) * 16 + 1 * cc.val = cq.val; rw [e4, hcq]; omega
  | ⟨1, _⟩ => show win0_1.index t (1 : Fin 4) * 9 + 1 * k.val = k.val; rw [e5]; omega
  | ⟨2, _⟩ => show win0_1.index t (2 : Fin 4) * 128 + 1 * h.val = h.val; rw [e6]; omega
  | ⟨3, _⟩ => show win0_1.index t (3 : Fin 4) * 128 + 1 * w.val = w.val; rw [e7]; omega

/-- Each product of the body at point `t` and block entry (0, cc, h, w) is the tap of the pixel (b, 16·ct + cc, h, w). -/
theorem blockTap_eq (c : Dev nD) (t : Fin cfg0.N) (cc : Fin 16) (h w : Fin 128) (b : Fin 8) (cq : Fin 96)
    (hb : b.val = win0_2.index t (0 : Fin 4)) (hcq : cq.val = win0_2.index t (1 : Fin 4) * 16 + cc.val) (di dj : Fin 3) :
    Block.blockTap (iblk m c 0 t) (iblk m c 1 t) cc h w di dj
      = Cert.Taps.tap (Arrays.padded m c) (m ((c : Thread nD τ).loc main_arg1)) b cq h w di dj := by
  unfold Block.blockTap Cert.Taps.tap Cert.Taps.padIdx
  rw [inBlock_apply m c t cc _ _ b cq hb hcq, wtBlock_apply m c t cc _ h w cq hcq, Arrays.weights_apply]

/-- WHAT POINT `t` WRITES BACK is block `t` of the weighted sum. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  obtain ⟨-, -, -, -, -, -, -, -, b0, b1, e10, e11⟩ := idx_facts t
  funext y
  obtain ⟨q0, cc, h, w, rfl⟩ : ∃ (q0 : Fin 1) (cc : Fin 16) (h w : Fin 128), y = ix4 q0 cc h w :=
    ⟨y 0, y 1, y 2, y 3, eq_ix4 y⟩
  obtain rfl : q0 = 0 := Subsingleton.elim _ _
  have hb : ((⟨win0_2.index t (0 : Fin 4), by omega⟩ : Fin 8)).val = win0_2.index t (0 : Fin 4) := rfl
  have hcq : ((⟨win0_2.index t (1 : Fin 4) * 16 + cc.val, by omega⟩ : Fin 96)).val = win0_2.index t (1 : Fin 4) * 16 + cc.val := rfl
  show (out0_2 (F := Ideal) (iblk m c 0 t) (iblk m c 1 t) (ix4 (0 : Fin 1) cc h w) : EReal)
    = result m c (((cfg0.win 2).blk t).view.emb (ix4 (0 : Fin 1) cc h w))
  have hemb : ((cfg0.win 2).blk t).view.emb (ix4 (0 : Fin 1) cc h w)
      = ix4 (⟨win0_2.index t (0 : Fin 4), by omega⟩ : Fin 8) (⟨win0_2.index t (1 : Fin 4) * 16 + cc.val, by omega⟩ : Fin 96) h w := by
    funext a
    apply Fin.ext
    match a with
    | ⟨0, _⟩ => show win0_2.index t (0 : Fin 4) * 1 + 1 * (0 : Fin 1).val = win0_2.index t (0 : Fin 4); simp
    | ⟨1, _⟩ => show win0_2.index t (1 : Fin 4) * 16 + 1 * cc.val = win0_2.index t (1 : Fin 4) * 16 + cc.val; omega
    | ⟨2, _⟩ => show win0_2.index t (2 : Fin 4) * 128 + 1 * h.val = h.val; rw [e10]; omega
    | ⟨3, _⟩ => show win0_2.index t (3 : Fin 4) * 128 + 1 * w.val = w.val; rw [e11]; omega
  rw [hemb]
  refine (Block.block_apply (iblk m c 0 t) (iblk m c 1 t) cc h w).trans ?_
  unfold result
  rw [Cert.Taps.conv_ix4, ← Cert.Taps.fold_eq_convAt]
  rw [blockTap_eq m c t cc h w _ _ hb hcq 0 0, blockTap_eq m c t cc h w _ _ hb hcq 0 1,
    blockTap_eq m c t cc h w _ _ hb hcq 0 2, blockTap_eq m c t cc h w _ _ hb hcq 1 0,
    blockTap_eq m c t cc h w _ _ hb hcq 1 1, blockTap_eq m c t cc h w _ _ hb hcq 1 2,
    blockTap_eq m c t cc h w _ _ hb hcq 2 0, blockTap_eq m c t cc h w _ _ hb hcq 2 1,
    blockTap_eq m c t cc h w _ _ hb hcq 2 2]

/-- An index of the array is in point `t`'s block iff each coordinate is in the block's range on its axis. -/
theorem mem_blk (t : Fin cfg0.N) (i : S8x96x128x128.Idx) :
    i ∈ ((cfg0.win 2).blk t).view.set ↔ ∀ a : Fin 4, win0_2.index t a * S1x16x128x128.size a ≤ (i a).val
      ∧ (i a).val < win0_2.index t a * S1x16x128x128.size a + S1x16x128x128.size a := by
  show i ∈ ((View.whole main_v3).slice (win0_2.rect t)).set ↔ _
  rw [View.set_slice_whole, Rect.mem_set_unit]
  exact Iff.rfl

/-- Every index of the array lies in the block of the point (its channel's tile, its image). -/
theorem covered (i : S8x96x128x128.Idx) :
    ∃ t : Fin cfg0.N, (cfg0.win 2).flush t = true ∧ i ∈ ((cfg0.win 2).blk t).view.set := by
  have hi0 : (i 0).val < 8 := (i 0).isLt
  have hi1 : (i 1).val < 96 := (i 1).isLt
  have hi2 : (i 2).val < 128 := (i 2).isLt
  have hi3 : (i 3).val < 128 := (i 3).isLt
  obtain ⟨t, ht⟩ := idx_onto ⟨(i 0).val, by omega⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

/-- THE ARRAY after the run is the weighted sum. -/
theorem final (c : Dev nD) : (dats m 0 c).arrAt 2 cfg0.N = result m c :=
  (dats m 0 c).arrAt_eq_of_cover 2 (result m c) (fun t _ => flushed_eq m c t) covered

/-- THE RUN: every weakly fair execution terminates with the result array at the weighted sum and the arguments as
    launched (the frame run, its output array read by `final`, the arguments by the frame's own lemmas). -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Hand

end
-- ==== Proof.RefValue.lean ====
/-
  The reference's result is the same per-pixel 3 × 3 weighted sum of the zero-padded input.

  The reference pads the input, takes its nine shifts by (di, dj), gives each a unit axis, stacks the nine along that
  axis and reshapes the axis of nine into 3 × 3: entry (b, c, di, dj, h, w) of the stack is the padded input at
  (b, c, h + di, w + dj) (`pieceK_apply`, `stackK_apply`, `patches_apply`). It multiplies by the weight maps broadcast
  over the images (`prod_apply`) and sums axes 2 and 3 away from a zero, which is the sum of the pixel's nine taps
  (`result_eq`, by the host sum read as a sum over the taps).
-/
import proofs.«173404_j47914655154337_1_alg».proof.Proof.Gen.ReferenceIdeal.Read
import proofs.«173404_j47914655154337_1_alg».proof.Proof.Taps
import Idealize.ShloMosaic.Lib.Pipeline.Value
import Idealize.ShloMosaic.Lib.ValueIdxRank6
import Idealize.ShloMosaic.Lib.IdealHost

noncomputable section

namespace Cert.ReferenceIdeal.Hand

open Cert.ReferenceIdeal Cert.ReferenceIdeal.Gen Idealize.ShloMosaic Idealize.ShloMosaic.ValueIdx Idealize.ShloMosaic.TcCoe
open Idealize.SL.Sem

/-- Piece 0 of the stack — the padded input shifted by (0, 0), with a unit axis inserted — at (b, c, 0, h, w). -/
theorem piece0_apply (x0 : S8x96x128x128.Idx → EReal) (b : Fin 8) (c : Fin 96) (h w : Fin 128) :
    Read.val_main_v10 (F := Ideal) x0 (ix5 b c (0 : Fin 1) h w)
      = Read.val_main_v0 (F := Ideal) x0 (Cert.Taps.padIdx b c h w 0 0) := by
  rw [Read.val_main_v10_apply, Read.val_main_v1_apply]
  congr 1
  funext a
  apply Fin.ext
  match a with
  | ⟨0, _⟩ => rfl
  | ⟨1, _⟩ => rfl
  | ⟨2, _⟩ => show h.val = h.val + 0; omega
  | ⟨3, _⟩ => show w.val = w.val + 0; omega

/-- Entry (b, c, 0, h, w) of the stack of nine is piece 0 at (b, c, 0, h, w). -/
theorem stack0_apply (x0 : S8x96x128x128.Idx → EReal) (b : Fin 8) (c : Fin 96) (h w : Fin 128) :
    Read.val_main_v19 (F := Ideal) x0 (ix5 b c (0 : Fin 9) h w)
      = Read.val_main_v0 (F := Ideal) x0 (Cert.Taps.padIdx b c h w 0 0) := by
  refine Eq.trans ?_ (piece0_apply x0 b c h w)
  unfold Read.val_main_v19
  refine concatenate_apply_piece (t := S8x96x9x128x128) (2 : Fin 5) _ _ (ix5 b c (0 : Fin 9) h w) 0 ?_ S8x96x1x128x128
    (Read.val_main_v10 (F := Ideal) x0) ?_ rfl 0 ?_ (ix5 b c (0 : Fin 1) h w) ?_ ?_
  · show 0 < 9; omega
  · rfl
  · rfl
  · intro a ha
    match a with
    | ⟨0, _⟩ => rfl
    | ⟨1, _⟩ => rfl
    | ⟨2, _⟩ => exact absurd rfl ha
    | ⟨3, _⟩ => rfl
    | ⟨4, _⟩ => rfl
  · rfl

/-- Piece 1 of the stack — the padded input shifted by (0, 1), with a unit axis inserted — at (b, c, 0, h, w). -/
theorem piece1_apply (x0 : S8x96x128x128.Idx → EReal) (b : Fin 8) (c : Fin 96) (h w : Fin 128) :
    Read.val_main_v11 (F := Ideal) x0 (ix5 b c (0 : Fin 1) h w)
      = Read.val_main_v0 (F := Ideal) x0 (Cert.Taps.padIdx b c h w 0 1) := by
  rw [Read.val_main_v11_apply, Read.val_main_v2_apply]
  congr 1
  funext a
  apply Fin.ext
  match a with
  | ⟨0, _⟩ => rfl
  | ⟨1, _⟩ => rfl
  | ⟨2, _⟩ => show h.val = h.val + 0; omega
  | ⟨3, _⟩ => show 1 + w.val = w.val + 1; omega

/-- Entry (b, c, 1, h, w) of the stack of nine is piece 1 at (b, c, 0, h, w). -/
theorem stack1_apply (x0 : S8x96x128x128.Idx → EReal) (b : Fin 8) (c : Fin 96) (h w : Fin 128) :
    Read.val_main_v19 (F := Ideal) x0 (ix5 b c (1 : Fin 9) h w)
      = Read.val_main_v0 (F := Ideal) x0 (Cert.Taps.padIdx b c h w 0 1) := by
  refine Eq.trans ?_ (piece1_apply x0 b c h w)
  unfold Read.val_main_v19
  refine concatenate_apply_piece (t := S8x96x9x128x128) (2 : Fin 5) _ _ (ix5 b c (1 : Fin 9) h w) 1 ?_ S8x96x1x128x128
    (Read.val_main_v11 (F := Ideal) x0) ?_ rfl 1 ?_ (ix5 b c (0 : Fin 1) h w) ?_ ?_
  · show 1 < 9; omega
  · rfl
  · rfl
  · intro a ha
    match a with
    | ⟨0, _⟩ => rfl
    | ⟨1, _⟩ => rfl
    | ⟨2, _⟩ => exact absurd rfl ha
    | ⟨3, _⟩ => rfl
    | ⟨4, _⟩ => rfl
  · rfl

/-- Piece 2 of the stack — the padded input shifted by (0, 2), with a unit axis inserted — at (b, c, 0, h, w). -/
theorem piece2_apply (x0 : S8x96x128x128.Idx → EReal) (b : Fin 8) (c : Fin 96) (h w : Fin 128) :
    Read.val_main_v12 (F := Ideal) x0 (ix5 b c (0 : Fin 1) h w)
      = Read.val_main_v0 (F := Ideal) x0 (Cert.Taps.padIdx b c h w 0 2) := by
  rw [Read.val_main_v12_apply, Read.val_main_v3_apply]
  congr 1
  funext a
  apply Fin.ext
  match a with
  | ⟨0, _⟩ => rfl
  | ⟨1, _⟩ => rfl
  | ⟨2, _⟩ => show h.val = h.val + 0; omega
  | ⟨3, _⟩ => show 2 + w.val = w.val + 2; omega

/-- Entry (b, c, 2, h, w) of the stack of nine is piece 2 at (b, c, 0, h, w). -/
theorem stack2_apply (x0 : S8x96x128x128.Idx → EReal) (b : Fin 8) (c : Fin 96) (h w : Fin 128) :
    Read.val_main_v19 (F := Ideal) x0 (ix5 b c (2 : Fin 9) h w)
      = Read.val_main_v0 (F := Ideal) x0 (Cert.Taps.padIdx b c h w 0 2) := by
  refine Eq.trans ?_ (piece2_apply x0 b c h w)
  unfold Read.val_main_v19
  refine concatenate_apply_piece (t := S8x96x9x128x128) (2 : Fin 5) _ _ (ix5 b c (2 : Fin 9) h w) 2 ?_ S8x96x1x128x128
    (Read.val_main_v12 (F := Ideal) x0) ?_ rfl 2 ?_ (ix5 b c (0 : Fin 1) h w) ?_ ?_
  · show 2 < 9; omega
  · rfl
  · rfl
  · intro a ha
    match a with
    | ⟨0, _⟩ => rfl
    | ⟨1, _⟩ => rfl
    | ⟨2, _⟩ => exact absurd rfl ha
    | ⟨3, _⟩ => rfl
    | ⟨4, _⟩ => rfl
  · rfl

/-- Piece 3 of the stack — the padded input shifted by (1, 0), with a unit axis inserted — at (b, c, 0, h, w). -/
theorem piece3_apply (x0 : S8x96x128x128.Idx → EReal) (b : Fin 8) (c : Fin 96) (h w : Fin 128) :
    Read.val_main_v13 (F := Ideal) x0 (ix5 b c (0 : Fin 1) h w)
      = Read.val_main_v0 (F := Ideal) x0 (Cert.Taps.padIdx b c h w 1 0) := by
  rw [Read.val_main_v13_apply, Read.val_main_v4_apply]
  congr 1
  funext a
  apply Fin.ext
  match a with
  | ⟨0, _⟩ => rfl
  | ⟨1, _⟩ => rfl
  | ⟨2, _⟩ => show 1 + h.val = h.val + 1; omega
  | ⟨3, _⟩ => show w.val = w.val + 0; omega

/-- Entry (b, c, 3, h, w) of the stack of nine is piece 3 at (b, c, 0, h, w). -/
theorem stack3_apply (x0 : S8x96x128x128.Idx → EReal) (b : Fin 8) (c : Fin 96) (h w : Fin 128) :
    Read.val_main_v19 (F := Ideal) x0 (ix5 b c (3 : Fin 9) h w)
      = Read.val_main_v0 (F := Ideal) x0 (Cert.Taps.padIdx b c h w 1 0) := by
  refine Eq.trans ?_ (piece3_apply x0 b c h w)
  unfold Read.val_main_v19
  refine concatenate_apply_piece (t := S8x96x9x128x128) (2 : Fin 5) _ _ (ix5 b c (3 : Fin 9) h w) 3 ?_ S8x96x1x128x128
    (Read.val_main_v13 (F := Ideal) x0) ?_ rfl 3 ?_ (ix5 b c (0 : Fin 1) h w) ?_ ?_
  · show 3 < 9; omega
  · rfl
  · rfl
  · intro a ha
    match a with
    | ⟨0, _⟩ => rfl
    | ⟨1, _⟩ => rfl
    | ⟨2, _⟩ => exact absurd rfl ha
    | ⟨3, _⟩ => rfl
    | ⟨4, _⟩ => rfl
  · rfl

/-- Piece 4 of the stack — the padded input shifted by (1, 1), with a unit axis inserted — at (b, c, 0, h, w). -/
theorem piece4_apply (x0 : S8x96x128x128.Idx → EReal) (b : Fin 8) (c : Fin 96) (h w : Fin 128) :
    Read.val_main_v14 (F := Ideal) x0 (ix5 b c (0 : Fin 1) h w)
      = Read.val_main_v0 (F := Ideal) x0 (Cert.Taps.padIdx b c h w 1 1) := by
  rw [Read.val_main_v14_apply, Read.val_main_v5_apply]
  congr 1
  funext a
  apply Fin.ext
  match a with
  | ⟨0, _⟩ => rfl
  | ⟨1, _⟩ => rfl
  | ⟨2, _⟩ => show 1 + h.val = h.val + 1; omega
  | ⟨3, _⟩ => show 1 + w.val = w.val + 1; omega

/-- Entry (b, c, 4, h, w) of the stack of nine is piece 4 at (b, c, 0, h, w). -/
theorem stack4_apply (x0 : S8x96x128x128.Idx → EReal) (b : Fin 8) (c : Fin 96) (h w : Fin 128) :
    Read.val_main_v19 (F := Ideal) x0 (ix5 b c (4 : Fin 9) h w)
      = Read.val_main_v0 (F := Ideal) x0 (Cert.Taps.padIdx b c h w 1 1) := by
  refine Eq.trans ?_ (piece4_apply x0 b c h w)
  unfold Read.val_main_v19
  refine concatenate_apply_piece (t := S8x96x9x128x128) (2 : Fin 5) _ _ (ix5 b c (4 : Fin 9) h w) 4 ?_ S8x96x1x128x128
    (Read.val_main_v14 (F := Ideal) x0) ?_ rfl 4 ?_ (ix5 b c (0 : Fin 1) h w) ?_ ?_
  · show 4 < 9; omega
  · rfl
  · rfl
  · intro a ha
    match a with
    | ⟨0, _⟩ => rfl
    | ⟨1, _⟩ => rfl
    | ⟨2, _⟩ => exact absurd rfl ha
    | ⟨3, _⟩ => rfl
    | ⟨4, _⟩ => rfl
  · rfl

/-- Piece 5 of the stack — the padded input shifted by (1, 2), with a unit axis inserted — at (b, c, 0, h, w). -/
theorem piece5_apply (x0 : S8x96x128x128.Idx → EReal) (b : Fin 8) (c : Fin 96) (h w : Fin 128) :
    Read.val_main_v15 (F := Ideal) x0 (ix5 b c (0 : Fin 1) h w)
      = Read.val_main_v0 (F := Ideal) x0 (Cert.Taps.padIdx b c h w 1 2) := by
  rw [Read.val_main_v15_apply, Read.val_main_v6_apply]
  congr 1
  funext a
  apply Fin.ext
  match a with
  | ⟨0, _⟩ => rfl
  | ⟨1, _⟩ => rfl
  | ⟨2, _⟩ => show 1 + h.val = h.val + 1; omega
  | ⟨3, _⟩ => show 2 + w.val = w.val + 2; omega

/-- Entry (b, c, 5, h, w) of the stack of nine is piece 5 at (b, c, 0, h, w). -/
theorem stack5_apply (x0 : S8x96x128x128.Idx → EReal) (b : Fin 8) (c : Fin 96) (h w : Fin 128) :
    Read.val_main_v19 (F := Ideal) x0 (ix5 b c (5 : Fin 9) h w)
      = Read.val_main_v0 (F := Ideal) x0 (Cert.Taps.padIdx b c h w 1 2) := by
  refine Eq.trans ?_ (piece5_apply x0 b c h w)
  unfold Read.val_main_v19
  refine concatenate_apply_piece (t := S8x96x9x128x128) (2 : Fin 5) _ _ (ix5 b c (5 : Fin 9) h w) 5 ?_ S8x96x1x128x128
    (Read.val_main_v15 (F := Ideal) x0) ?_ rfl 5 ?_ (ix5 b c (0 : Fin 1) h w) ?_ ?_
  · show 5 < 9; omega
  · rfl
  · rfl
  · intro a ha
    match a with
    | ⟨0, _⟩ => rfl
    | ⟨1, _⟩ => rfl
    | ⟨2, _⟩ => exact absurd rfl ha
    | ⟨3, _⟩ => rfl
    | ⟨4, _⟩ => rfl
  · rfl

/-- Piece 6 of the stack — the padded input shifted by (2, 0), with a unit axis inserted — at (b, c, 0, h, w). -/
theorem piece6_apply (x0 : S8x96x128x128.Idx → EReal) (b : Fin 8) (c : Fin 96) (h w : Fin 128) :
    Read.val_main_v16 (F := Ideal) x0 (ix5 b c (0 : Fin 1) h w)
      = Read.val_main_v0 (F := Ideal) x0 (Cert.Taps.padIdx b c h w 2 0) := by
  rw [Read.val_main_v16_apply, Read.val_main_v7_apply]
  congr 1
  funext a
  apply Fin.ext
  match a with
  | ⟨0, _⟩ => rfl
  | ⟨1, _⟩ => rfl
  | ⟨2, _⟩ => show 2 + h.val = h.val + 2; omega
  | ⟨3, _⟩ => show w.val = w.val + 0; omega

/-- Entry (b, c, 6, h, w) of the stack of nine is piece 6 at (b, c, 0, h, w). -/
theorem stack6_apply (x0 : S8x96x128x128.Idx → EReal) (b : Fin 8) (c : Fin 96) (h w : Fin 128) :
    Read.val_main_v19 (F := Ideal) x0 (ix5 b c (6 : Fin 9) h w)
      = Read.val_main_v0 (F := Ideal) x0 (Cert.Taps.padIdx b c h w 2 0) := by
  refine Eq.trans ?_ (piece6_apply x0 b c h w)
  unfold Read.val_main_v19
  refine concatenate_apply_piece (t := S8x96x9x128x128) (2 : Fin 5) _ _ (ix5 b c (6 : Fin 9) h w) 6 ?_ S8x96x1x128x128
    (Read.val_main_v16 (F := Ideal) x0) ?_ rfl 6 ?_ (ix5 b c (0 : Fin 1) h w) ?_ ?_
  · show 6 < 9; omega
  · rfl
  · rfl
  · intro a ha
    match a with
    | ⟨0, _⟩ => rfl
    | ⟨1, _⟩ => rfl
    | ⟨2, _⟩ => exact absurd rfl ha
    | ⟨3, _⟩ => rfl
    | ⟨4, _⟩ => rfl
  · rfl

/-- Piece 7 of the stack — the padded input shifted by (2, 1), with a unit axis inserted — at (b, c, 0, h, w). -/
theorem piece7_apply (x0 : S8x96x128x128.Idx → EReal) (b : Fin 8) (c : Fin 96) (h w : Fin 128) :
    Read.val_main_v17 (F := Ideal) x0 (ix5 b c (0 : Fin 1) h w)
      = Read.val_main_v0 (F := Ideal) x0 (Cert.Taps.padIdx b c h w 2 1) := by
  rw [Read.val_main_v17_apply, Read.val_main_v8_apply]
  congr 1
  funext a
  apply Fin.ext
  match a with
  | ⟨0, _⟩ => rfl
  | ⟨1, _⟩ => rfl
  | ⟨2, _⟩ => show 2 + h.val = h.val + 2; omega
  | ⟨3, _⟩ => show 1 + w.val = w.val + 1; omega

/-- Entry (b, c, 7, h, w) of the stack of nine is piece 7 at (b, c, 0, h, w). -/
theorem stack7_apply (x0 : S8x96x128x128.Idx → EReal) (b : Fin 8) (c : Fin 96) (h w : Fin 128) :
    Read.val_main_v19 (F := Ideal) x0 (ix5 b c (7 : Fin 9) h w)
      = Read.val_main_v0 (F := Ideal) x0 (Cert.Taps.padIdx b c h w 2 1) := by
  refine Eq.trans ?_ (piece7_apply x0 b c h w)
  unfold Read.val_main_v19
  refine concatenate_apply_piece (t := S8x96x9x128x128) (2 : Fin 5) _ _ (ix5 b c (7 : Fin 9) h w) 7 ?_ S8x96x1x128x128
    (Read.val_main_v17 (F := Ideal) x0) ?_ rfl 7 ?_ (ix5 b c (0 : Fin 1) h w) ?_ ?_
  · show 7 < 9; omega
  · rfl
  · rfl
  · intro a ha
    match a with
    | ⟨0, _⟩ => rfl
    | ⟨1, _⟩ => rfl
    | ⟨2, _⟩ => exact absurd rfl ha
    | ⟨3, _⟩ => rfl
    | ⟨4, _⟩ => rfl
  · rfl

/-- Piece 8 of the stack — the padded input shifted by (2, 2), with a unit axis inserted — at (b, c, 0, h, w). -/
theorem piece8_apply (x0 : S8x96x128x128.Idx → EReal) (b : Fin 8) (c : Fin 96) (h w : Fin 128) :
    Read.val_main_v18 (F := Ideal) x0 (ix5 b c (0 : Fin 1) h w)
      = Read.val_main_v0 (F := Ideal) x0 (Cert.Taps.padIdx b c h w 2 2) := by
  rw [Read.val_main_v18_apply, Read.val_main_v9_apply]
  congr 1
  funext a
  apply Fin.ext
  match a with
  | ⟨0, _⟩ => rfl
  | ⟨1, _⟩ => rfl
  | ⟨2, _⟩ => show 2 + h.val = h.val + 2; omega
  | ⟨3, _⟩ => show 2 + w.val = w.val + 2; omega

/-- Entry (b, c, 8, h, w) of the stack of nine is piece 8 at (b, c, 0, h, w). -/
theorem stack8_apply (x0 : S8x96x128x128.Idx → EReal) (b : Fin 8) (c : Fin 96) (h w : Fin 128) :
    Read.val_main_v19 (F := Ideal) x0 (ix5 b c (8 : Fin 9) h w)
      = Read.val_main_v0 (F := Ideal) x0 (Cert.Taps.padIdx b c h w 2 2) := by
  refine Eq.trans ?_ (piece8_apply x0 b c h w)
  unfold Read.val_main_v19
  refine concatenate_apply_piece (t := S8x96x9x128x128) (2 : Fin 5) _ _ (ix5 b c (8 : Fin 9) h w) 8 ?_ S8x96x1x128x128
    (Read.val_main_v18 (F := Ideal) x0) ?_ rfl 8 ?_ (ix5 b c (0 : Fin 1) h w) ?_ ?_
  · show 8 < 9; omega
  · rfl
  · rfl
  · intro a ha
    match a with
    | ⟨0, _⟩ => rfl
    | ⟨1, _⟩ => rfl
    | ⟨2, _⟩ => exact absurd rfl ha
    | ⟨3, _⟩ => rfl
    | ⟨4, _⟩ => rfl
  · rfl

/-- THE STACK RESHAPED: entry (b, c, di, dj, h, w) is the padded input at (b, c, h + di, w + dj). -/
theorem patches_apply (x0 : S8x96x128x128.Idx → EReal) (b : Fin 8) (c : Fin 96) (di dj : Fin 3) (h w : Fin 128) :
    Read.val_main_v20 (F := Ideal) x0 (Cert.Taps.prodIdx b c di dj h w)
      = Read.val_main_v0 (F := Ideal) x0 (Cert.Taps.padIdx b c h w di dj) := by
  unfold Read.val_main_v20
  rw [shapeCast_apply _ _ (Cert.Taps.prodIdx b c di dj h w) (ix5 b c (⟨3 * di.val + dj.val, by omega⟩ : Fin 9) h w) (by
    unfold Cert.Taps.prodIdx
    rw [Shape.rowMajor_val_five, Shape.rowMajor_val_six]
    show (((b.val * 96 + c.val) * 9 + (3 * di.val + dj.val)) * 128 + h.val) * 128 + w.val
      = ((((b.val * 96 + c.val) * 3 + di.val) * 3 + dj.val) * 128 + h.val) * 128 + w.val
    ring)]
  fin_cases di <;> fin_cases dj
  · exact stack0_apply x0 b c h w
  · exact stack1_apply x0 b c h w
  · exact stack2_apply x0 b c h w
  · exact stack3_apply x0 b c h w
  · exact stack4_apply x0 b c h w
  · exact stack5_apply x0 b c h w
  · exact stack6_apply x0 b c h w
  · exact stack7_apply x0 b c h w
  · exact stack8_apply x0 b c h w

/-- The array of products: the weight of the tap times the padded input of the tap. -/
theorem prod_apply (x0 : S8x96x128x128.Idx → EReal) (x1 : S1x96x3x3x128x128.Idx → EReal) (b : Fin 8) (c : Fin 96)
    (di dj : Fin 3) (h w : Fin 128) :
    (Read.val_main_v22 (F := Ideal) x0 x1 (Cert.Taps.prodIdx b c di dj h w) : EReal)
      = x1 (Cert.Taps.wtIdx c di dj h w) * Read.val_main_v0 (F := Ideal) x0 (Cert.Taps.padIdx b c h w di dj) := by
  rw [Read.val_main_v22_apply, Read.val_main_v21_apply, patches_apply]
  have hw : Read.idx_main_v21 (Cert.Taps.prodIdx b c di dj h w) = Cert.Taps.wtIdx c di dj h w := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [hw]
  rfl

/-- THE REFERENCE'S RESULT is the weighted sum of its padded input with the weight maps. -/
theorem result_eq (x0 : S8x96x128x128.Idx → EReal) (x1 : S1x96x3x3x128x128.Idx → EReal) :
    Read.val_main_v23 (F := Ideal) x0 x1 = Cert.Taps.conv (Read.val_main_v0 (F := Ideal) x0) x1 := by
  funext i
  obtain ⟨b, c, h, w, rfl⟩ : ∃ (b : Fin 8) (c : Fin 96) (h w : Fin 128), i = ix4 b c h w := ⟨i 0, i 1, i 2, i 3, eq_ix4 i⟩
  rw [Cert.Taps.conv_ix4]
  unfold Read.val_main_v23
  rw [hostReduceAdd_apply, Read.val_main_cst_apply]
  rw [show (FloatOps.ofBits (F := Ideal) FTy.f32 0x00000000#32 : EReal) = 0 from Ideal.ofBits_zero_f32]
  exact Cert.Taps.hostSum_eq_convAt _ (Read.val_main_v0 (F := Ideal) x0) x1 _ (prod_apply x0 x1) b c h w

end Cert.ReferenceIdeal.Hand

end
-- ==== Proof.lean ====
/-
  A per-pixel, spatially varying 3 × 3 depthwise convolution: for an input x [8, 96, 128, 128] and weight maps
  wt [1, 96, 3, 3, 128, 128], the result at (b, c, h, w) is the sum over the nine taps (di, dj) of
  xp (b, c, h + di, w + dj) · wt (0, c, di, dj, h, w), where xp is x padded with one ring of zeros on its last two axes.

  The kernel walks a 6 × 8 grid (channel tile, image). At each point it holds one padded image's sixteen channels and the
  same channels' nine weight maps, and adds the nine shifted products onto a zero, one after the other, rows first; the
  48 output blocks tile the result. The reference stacks the nine shifts of the padded input, multiplies the stack by the
  weight maps broadcast over the images, and sums the two tap axes away from a zero.

  On the extended reals both are the same function of the arguments. The two differ only in the order of the factors in
  each product, in the grouping of the nine-term sum and in a leading zero: commutativity of the product, associativity of
  the sum and 0 + x = x, all of which hold at the infinities too, so the finiteness of the inputs is never used. The zero
  padding is the same term in both programs (the integer zero converted to a float) and is never opened.

  Proof/Taps.lean has the sum and its two arrangements; Proof/KernelBlock.lean, KernelArrays.lean and KernelValue.lean
  read the kernel's run as that sum; Proof/RefValue.lean reads the reference's. The kernel's idealization rewrote no
  operation, so the conjunct relating it to the kernel as printed is trivial.
-/
import proofs.«173404_j47914655154337_1_alg».proof.Defs
import proofs.«173404_j47914655154337_1_alg».proof.Proof.Gen.Kernel
import proofs.«173404_j47914655154337_1_alg».proof.Proof.Gen.Kernel.Skeleton
import proofs.«173404_j47914655154337_1_alg».proof.Proof.Gen.Kernel.Launch
import proofs.«173404_j47914655154337_1_alg».proof.Proof.Gen.Kernel.Points
import proofs.«173404_j47914655154337_1_alg».proof.Proof.Gen.Kernel.Frame
import proofs.«173404_j47914655154337_1_alg».proof.Proof.Gen.KernelIdeal
import proofs.«173404_j47914655154337_1_alg».proof.Proof.Gen.KernelIdeal.Skeleton
import proofs.«173404_j47914655154337_1_alg».proof.Proof.Gen.KernelIdeal.Launch
import proofs.«173404_j47914655154337_1_alg».proof.Proof.Gen.KernelIdeal.Points
import proofs.«173404_j47914655154337_1_alg».proof.Proof.Gen.KernelIdeal.Frame
import proofs.«173404_j47914655154337_1_alg».proof.Proof.Gen.ReferenceIdeal
import proofs.«173404_j47914655154337_1_alg».proof.Proof.Gen.Pre_finite_inputs
import proofs.«173404_j47914655154337_1_alg».proof.Proof.Gen.ReferenceIdeal.Run
import proofs.«173404_j47914655154337_1_alg».proof.Proof.Gen.ReferenceIdeal.Read
import proofs.«173404_j47914655154337_1_alg».proof.Proof.Taps
import proofs.«173404_j47914655154337_1_alg».proof.Proof.KernelValue
import proofs.«173404_j47914655154337_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the per-pixel 3 × 3 weighted sum of the padded
    input: the kernel's output blocks tile it, the reference's sum over its two tap axes is it, and the padded input
    is the same term of the arguments on both sides. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.Hand.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
